-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S32x4096 : Shape := ⟨2, ![32, 4096]⟩
abbrev S64x32 : Shape := ⟨2, ![64, 32]⟩
abbrev S32x64 : Shape := ⟨2, ![32, 64]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S32x4096 : S_.BroadcastsInDim S32x4096 (![] : Fin 0 → Fin S32x4096.rank)
  reducesTo_S32x4096_S_d0_1 : S32x4096.ReducesTo [0, 1] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part2 {F : FTy → Type} [FloatOps F] (main_arg7 : FVec F S32x64 .f32) (main_arg8 : FVec F S4096x32 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S4096x32 .f32 := Host.absf main_arg8
  let main_cst_14 : FVec F S_ .f32 := constant S_ .f32 0x7F800000#32
  let main_v40 : FVec F S4096x32 .f32 := broadcastInDim S4096x32 ![] bcast_S_S4096x32 main_cst_14
  let main_v41 : IVec S4096x32 1 := cmpf .olt main_v39 main_v40
  let main_c_15 : IVec S_ 1 := constantI S_ 1 1#1
  let main_v42 : IVec S_ 1 := (fun x v => Host.reduce IntOp.andi x v reducesTo_S4096x32_S_d0_1 h_S_) main_v41 main_c_15
  let main_v43 : IVec S_ 1 := andi main_v38 main_v42
  main_v43

def fn_part1 {F : FTy → Type} [FloatOps F] (main_arg4 : FVec F S4096x64 .f32) (main_arg5 : FVec F S32x4096 .f32) (main_arg6 : FVec F S64x32 .f32) (main_arg7 : FVec F S32x64 .f32) (main_arg8 : FVec F S4096x32 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S32x4096 .f32 := Host.absf main_arg5
  let main_cst_8 : FVec F S_ .f32 := constant S_ .f32 0x7F800000#32
  let main_v25 : FVec F S32x4096 .f32 := broadcastInDim S32x4096 ![] bcast_S_S32x4096 main_cst_8
  let main_v26 : IVec S32x4096 1 := cmpf .olt main_v24 main_v25
  let main_c_9 : IVec S_ 1 := constantI S_ 1 1#1
  let main_v27 : IVec S_ 1 := (fun x v => Host.reduce IntOp.andi x v reducesTo_S32x4096_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_v33

def fn {F : FTy → Type} [FloatOps F] (main_arg0 : FVec F S4x2048x4096 .f32) (main_arg1 : FVec F S4096x4096 .f32) (main_arg2 : FVec F S4096 .f32) (main_arg3 : FVec F S64x4096 .f32) (main_arg4 : FVec F S4096x64 .f32) (main_arg5 : FVec F S32x4096 .f32) (main_arg6 : FVec F S64x32 .f32) (main_arg7 : FVec F S32x64 .f32) (main_arg8 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_arg7 main_arg8 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S32x4096 : Shape := ⟨2, ![32, 4096]⟩
abbrev S64x32 : Shape := ⟨2, ![64, 32]⟩
abbrev S32x64 : Shape := ⟨2, ![32, 64]⟩
abbrev S4096x32 : Shape := ⟨2, ![4096, 32]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 34
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S32x4096, .f32⟩
  | .hbm, ⟨6, _⟩ => ⟨S64x32, .f32⟩
  | .hbm, ⟨7, _⟩ => ⟨S32x64, .f32⟩
  | .hbm, ⟨8, _⟩ => ⟨S4096x32, .f32⟩
  | .hbm, ⟨9, _⟩ => ⟨S4096x64, .f32⟩
  | .hbm, ⟨10, _⟩ => ⟨S64x4096, .f32⟩
  | .hbm, ⟨11, _⟩ => ⟨S4096x4096, .f32⟩
  | .hbm, ⟨12, _⟩ => ⟨S4096x32, .f32⟩
  | .hbm, ⟨13, _⟩ => ⟨S32x64, .f32⟩
  | .hbm, ⟨14, _⟩ => ⟨S4096x64, .f32⟩
  | .hbm, ⟨15, _⟩ => ⟨S64x32, .f32⟩
  | .hbm, ⟨16, _⟩ => ⟨S4096x32, .f32⟩
  | .hbm, ⟨17, _⟩ => ⟨S32x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S8192x4096, .f32⟩
  | .hbm, ⟨30, _⟩ => ⟨S8192x4096, .bf16⟩
  | .hbm, ⟨31, _⟩ => ⟨S1x4096, .f32⟩
  | .hbm, ⟨32, _⟩ => ⟨S8192x4096, .f32⟩
  | .hbm, ⟨33, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S64x4096_S4096x64_1_0 : S64x4096.Transposes [1, 0] S4096x64
  transposes_S4096x64_S64x4096_1_0 : S4096x64.Transposes [1, 0] S64x4096
  transposes_S32x4096_S4096x32_1_0 : S32x4096.Transposes [1, 0] S4096x32
  transposes_S64x32_S32x64_1_0 : S64x32.Transposes [1, 0] S32x64
  transposes_S32x64_S64x32_1_0 : S32x64.Transposes [1, 0] S64x32
  transposes_S4096x32_S32x4096_1_0 : S4096x32.Transposes [1, 0] S32x4096
  transposes_S4096x4096_S4096x4096_1_0 : S4096x4096.Transposes [1, 0] S4096x4096
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S4096x64_S64x4096_S4096x4096_1_0_0_1_n_n_wf : DotDims.WF S4096x64 S64x4096 S4096x4096 [1] [0] [0] [1] [] []
  dot_S4096x32_S32x64_S4096x64_1_0_0_1_n_n_wf : DotDims.WF S4096x32 S32x64 S4096x64 [1] [0] [0] [1] [] []
  dot_S4096x64_S64x32_S4096x32_1_0_0_1_n_n_wf : DotDims.WF S4096x64 S64x32 S4096x32 [1] [0] [0] [1] [] []
  dot_S4096x32_S32x4096_S4096x4096_1_0_0_1_n_n_wf : DotDims.WF S4096x32 S32x4096 S4096x4096 [1] [0] [0] [1] [] []
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S32x4096 : Shape := ⟨2, ![32, 4096]⟩
abbrev S64x32 : Shape := ⟨2, ![64, 32]⟩
abbrev S32x64 : Shape := ⟨2, ![32, 64]⟩
abbrev S4096x32 : Shape := ⟨2, ![4096, 32]⟩
abbrev S1x1x4096 : Shape := ⟨3, ![1, 1, 4096]⟩
abbrev S4x2048x64 : Shape := ⟨3, ![4, 2048, 64]⟩
abbrev S4x2048x32 : Shape := ⟨3, ![4, 2048, 32]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S32x4096, .f32⟩
  | .hbm, ⟨6, _⟩ => ⟨S64x32, .f32⟩
  | .hbm, ⟨7, _⟩ => ⟨S32x64, .f32⟩
  | .hbm, ⟨8, _⟩ => ⟨S4096x32, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S4x2048x64, .f32⟩
  | .hbm, ⟨14, _⟩ => ⟨S4x2048x4096, .f32⟩
  | .hbm, ⟨15, _⟩ => ⟨S4x2048x32, .f32⟩
  | .hbm, ⟨16, _⟩ => ⟨S4x2048x64, .f32⟩
  | .hbm, ⟨17, _⟩ => ⟨S4x2048x32, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S64x32_S4x2048x64_2_1_01_0_n_n_wf : DotDims.WF S4x2048x32 S64x32 S4x2048x64 [2] [1] [0, 1] [0] [] []
  dot_S4x2048x64_S32x64_S4x2048x32_2_1_01_0_n_n_wf : DotDims.WF S4x2048x64 S32x64 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S64x32_S4x2048x64_2_1_01_0_n_n : DotDims S4x2048x32 S64x32 S4x2048x64 where
  lhsContracting := [2]
  rhsContracting := [1]
  lhsNonContracting := [0, 1]
  rhsNonContracting := [0]
  lhsBatch := []
  rhsBatch := []
  wf := dot_S4x2048x32_S64x32_S4x2048x64_2_1_01_0_n_n_wf
def dot_S4x2048x64_S32x64_S4x2048x32_2_1_01_0_n_n : DotDims S4x2048x64 S32x64 S4x2048x32 where
  lhsContracting := [2]
  rhsContracting := [1]
  lhsNonContracting := [0, 1]
  rhsNonContracting := [0]
  lhsBatch := []
  rhsBatch := []
  wf := dot_S4x2048x64_S32x64_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.Accumulate.lean ====
/-
  What the matmul body leaves after each grid point, for each of its three control cases.

  The grid's last axis runs over the four blocks of the contracted dimension.  The body keeps an accumulator
  block between points: at the first block (case A) it stores zeros and then adds the product of the current
  input blocks; at the middle blocks (case B) it adds the product to what the previous point left; at the last block
  (case C) it adds the product and, besides, writes the accumulator plus the bias row to the output block.
  Each case's stores are whole-block stores, so what a case leaves is the payload of its last store, read at the
  blocks the body loaded.
-/
import proofs.«173432_j10479720202377_2_alg».proof.Defs
import proofs.«173432_j10479720202377_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- Case A (first block of the contraction): the accumulator ends at `0 + x · w`. -/
theorem acc_A (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x1024 .bf16) (x1 : Vec F S1024x2048 .bf16) (x2 : Vec F S1x2048 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread,
    View.ld_unit_zero (S := S1024x2048) hz, View.ld_unit_zero (S := S1024x1024) hz]

/-- Case B (a middle block): the accumulator ends at what it held plus `x · w`. -/
theorem acc_B (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x1024 .bf16) (x1 : Vec F S1024x2048 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread,
    View.ld_unit_zero (S := S1024x2048) hz, View.ld_unit_zero (S := S1024x1024) hz]

/-- Case C (last block): the accumulator again ends at what it held plus `x · w`, -/
theorem acc_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S1024x2048 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread,
    View.ld_unit_zero (S := S1024x2048) hz, View.ld_unit_zero (S := S1024x1024) hz]

/-- and the output block is that accumulator plus the bias row spread over the rows. -/
theorem out_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S1024x2048 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x2048) _ hz]
  simp only [View.readAt_eq_ld, harg7.read_unread, harg3.read_unread, harg4.read_unread, harg5.read_unread,
    View.ld_unit_zero (S := S1024x2048) hz, View.ld_unit_zero (S := S1024x1024) hz, View.ld_unit_zero (S := S1x2048) hz]

end Cert.KernelIdeal.Acc

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.BlockEntry.lean ====
/-
  One entry of an output block, as a formula in the entries of the blocks the body loaded.

  At the ideal values (extended reals, exact operations) the three payloads of the matmul body read, at row `p` and
  column `q` of a block:  the zero block is `0`;  one accumulation step is `acc (p, q) + Σ_k x (p, k) · w (k, q)`,
  the sum over the 1024 contracted positions of the current blocks;  the last step adds the bias row's entry `q`.

  An output block is written at the last of four consecutive grid points `4g, 4g+1, 4g+2, 4g+3` (the grid's last
  axis, of extent 4, runs fastest): the first point resets the accumulator, each point adds its product, the last
  one adds the bias.  So the block written back at point `4g+3` is the four-step chain over the input blocks of
  those four points.
-/
import proofs.«173432_j10479720202377_2_alg».proof.Proof.Accumulate
import proofs.«173432_j10479720202377_2_alg».proof.Proof.LibPlainDot
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Acc

open Cert.KernelIdeal Cert.KernelIdeal.Gen

/-! ## The payloads at an index, at the ideal values -/

/-- The block the first point stores before accumulating is zero everywhere. -/
theorem zero_apply (j : S1024x2048.Idx) : k0_pay1 (F := Ideal) j = (0 : EReal) := by
  unfold k0_pay1
  simp only [shapeCast_self]
  exact Ideal.ofBits_zero_f32

/-- One accumulation step at `(p, q)`: what the accumulator held plus the product's entry. -/
theorem step_apply (acc : FVec Ideal S1024x2048 .f32) (x : FVec Ideal S1024x1024 .bf16) (w : FVec Ideal S1024x2048 .bf16)
    (p : Fin 1024) (q : Fin 2048) :
    k0_pay2 (F := Ideal) acc x w (ix2 p q) = acc (ix2 p q) + ∑ k : Fin 1024, x (ix2 p k) * w (ix2 k q) := by
  unfold k0_pay2
  simp only [shapeCast_self]
  refine (addf_apply _ _ _).trans ?_
  exact congrArg (fun z => acc (ix2 p q) + z)
    (PlainDot.matmul_zero_apply (φ₁ := .bf16) (φ₂ := .bf16) _ rfl none x w p q)

/-- The closing step at `(p, q)`: the accumulator's entry plus the bias row's entry `q`. -/
theorem bias_apply (acc : FVec Ideal S1024x2048 .f32) (b : FVec Ideal S1x2048 .f32) (p : Fin 1024) (q : Fin 2048) :
    k0_pay3 (F := Ideal) acc b (ix2 p q) = acc (ix2 p q) + b (ix2 (0 : Fin 1) q) := by
  unfold k0_pay3
  simp only [shapeCast_self]
  refine (addf_apply _ _ _).trans ?_
  exact congrArg (fun z => acc (ix2 p q) + z) (broadcastTo_1b_ab_apply b _ p q)

/-- The four-step chain at `(p, q)`. -/
theorem chain_apply (x0 x1 x2 x3 : FVec Ideal S1024x1024 .bf16) (w0 w1 w2 w3 : FVec Ideal S1024x2048 .bf16)
    (b : FVec Ideal S1x2048 .f32) (p : Fin 1024) (q : Fin 2048) :
    k0_pay3 (F := Ideal) (k0_pay2 (F := Ideal) (k0_pay2 (F := Ideal) (k0_pay2 (F := Ideal) (k0_pay2 (F := Ideal) (k0_pay1 (F := Ideal)) x0 w0) x1 w1) x2 w2) x3 w3) b (ix2 p q)
      = ((((0 + ∑ k : Fin 1024, x0 (ix2 p k) * w0 (ix2 k q)) + ∑ k : Fin 1024, x1 (ix2 p k) * w1 (ix2 k q))
            + ∑ k : Fin 1024, x2 (ix2 p k) * w2 (ix2 k q)) + ∑ k : Fin 1024, x3 (ix2 p k) * w3 (ix2 k q))
          + b (ix2 (0 : Fin 1) q) := by
  rw [bias_apply, step_apply, step_apply, step_apply, step_apply, zero_apply]

/-! ## The accumulator and the output block over four consecutive points -/

variable {F : FTy → Type} [FloatOps F]
variable (m : (ℓ : Loc nD τ sig) → Buf (Elt F) ℓ)

/-- The grid point before `t` (the point itself at the grid's first point, where it is never consulted). -/
abbrev prev (t : Fin cfg0.N) : Fin cfg0.N := ⟨t.val - 1, Nat.lt_of_le_of_lt (Nat.sub_le _ _) t.isLt⟩

set_option maxHeartbeats 1000000 in
/-- After a point of the first kind the accumulator is `0 + x · w` of that point's blocks. -/
theorem acc_first (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  exact acc_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

set_option maxHeartbeats 1000000 in
/-- After a middle point the accumulator is what the point before left plus `x · w` of this point's blocks. -/
theorem acc_mid (c : Dev nD) (t : Fin cfg0.N) (h0 : ¬t.val % 4 = 0) (h1 : ¬t.val % 4 = 3) :
    (outsAt0 m c t.val t.isLt).2
      = k0_pay2 (outsAt0 m c (prev t).val (prev t).isLt).2 (iblk m c 0 t) (iblk m c 1 t) := by
  rw [outsAt0_B m c t h0 h1]
  dsimp only
  exact acc_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
    (outsAt0 m c (t.val - 1) (Nat.lt_of_le_of_lt (Nat.sub_le _ _) t.isLt)).2

set_option maxHeartbeats 1000000 in
/-- After a last point the output block is the accumulator the point before left, plus `x · w`, plus the bias row. -/
theorem out_last (c : Dev nD) (t : Fin cfg0.N) (h0 : ¬t.val % 4 = 0) (h1 : t.val % 4 = 3) :
    (outsAt0 m c t.val t.isLt).1
      = k0_pay3 (k0_pay2 (outsAt0 m c (prev t).val (prev t).isLt).2 (iblk m c 0 t) (iblk m c 1 t)) (iblk m c 2 t) := by
  rw [outsAt0_C m c t h0 h1]
  dsimp only
  exact out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

set_option maxHeartbeats 1000000 in
/-- The output block left at the last of four consecutive points is the four-step chain over their input blocks. -/
theorem out_chain (c : Dev nD) (t : Fin cfg0.N) (h3 : t.val % 4 = 3) :
    (outsAt0 m c t.val t.isLt).1
      = k0_pay3 (k0_pay2 (k0_pay2 (k0_pay2 (k0_pay2 k0_pay1 (iblk m c 0 (prev (prev (prev t)))) (iblk m c 1 (prev (prev (prev t)))))
            (iblk m c 0 (prev (prev t))) (iblk m c 1 (prev (prev t))))
            (iblk m c 0 (prev t)) (iblk m c 1 (prev t)))
            (iblk m c 0 t) (iblk m c 1 t)) (iblk m c 2 t) := by
  have e1 : (prev t).val = t.val - 1 := rfl
  have e2 : (prev (prev t)).val = t.val - 1 - 1 := rfl
  have e3 : (prev (prev (prev t))).val = t.val - 1 - 1 - 1 := rfl
  rw [out_last m c t (by omega) h3,
    acc_mid m c (prev t) (by rw [e1]; omega) (by rw [e1]; omega),
    acc_mid m c (prev (prev t)) (by rw [e2]; omega) (by rw [e2]; omega),
    acc_first m c (prev (prev (prev t))) (by rw [e3]; omega) (by rw [e3]; omega)]

end Cert.KernelIdeal.Acc

end
-- ==== Proof.Blocks.lean ====
/-
  The blocks the body is handed, read as entries of the arrays the region finds.

  The grid has 8 × 2 × 4 points; point `t` (row-major, last axis fastest) has coordinates
  `(t / 8, t / 4 % 2, t % 4)`: a block of 1024 rows, a block of 2048 output columns, a block of 1024 contracted
  positions.  The left operand's block at `t` is rows `1024 (t / 8) + ·`, columns `1024 (t % 4) + ·` of the
  [8192, 4096] input; the weight's block is rows `1024 (t % 4) + ·`, columns `2048 (t / 4 % 2) + ·` of the
  [4096, 4096] folded weight; the bias block is columns `2048 (t / 4 % 2) + ·` of the [1, 4096] bias row; the
  output block is rows `1024 (t / 8) + ·`, columns `2048 (t / 4 % 2) + ·` of the [8192, 4096] result.
-/
import proofs.«173432_j10479720202377_2_alg».proof.Proof.BlockEntry

noncomputable section

open Idealize.ShloMosaic Idealize.ShloMosaic.TcCoe Idealize.SL.Sem
open Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided once over the 64 grid points. -/
theorem idx_facts : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- An entry of the left operand's block at point `t`. -/
theorem lhs_block_apply (c : Dev nD) (t : Fin cfg0.N) (p k : Fin 1024) (P : Fin 8192) (K : Fin 4096)
    (hP : P.val = 1024 * (t.val / 8) + p.val) (hK : K.val = 1024 * (t.val % 4) + k.val) :
    iblk m c 0 t (ix2 p k) = V m c main_v19 (ix2 P K) := by
  obtain ⟨e0, e1, -⟩ := idx_facts t
  unfold iblk
  rw [View.read_apply]
  refine congrArg (V m c main_v19) (funext fun a => Fin.ext ?_)
  match a with
  | ⟨0, _⟩ => show win0_0.index t (0 : Fin 2) * 1024 + 1 * p.val = P.val; rw [e0, hP]; omega
  | ⟨1, _⟩ => show win0_0.index t (1 : Fin 2) * 1024 + 1 * k.val = K.val; rw [e1, hK]; omega

/-- An entry of the weight's block at point `t`. -/
theorem rhs_block_apply (c : Dev nD) (t : Fin cfg0.N) (k : Fin 1024) (q : Fin 2048) (K Q : Fin 4096)
    (hK : K.val = 1024 * (t.val % 4) + k.val) (hQ : Q.val = 2048 * (t.val / 4 % 2) + q.val) :
    iblk m c 1 t (ix2 k q) = V m c main_v17 (ix2 K Q) := by
  obtain ⟨-, -, e0, e1, -⟩ := idx_facts t
  unfold iblk
  rw [View.read_apply]
  refine congrArg (V m c main_v17) (funext fun a => Fin.ext ?_)
  match a with
  | ⟨0, _⟩ => show win0_1.index t (0 : Fin 2) * 1024 + 1 * k.val = K.val; rw [e0, hK]; omega
  | ⟨1, _⟩ => show win0_1.index t (1 : Fin 2) * 2048 + 1 * q.val = Q.val; rw [e1, hQ]; omega

/-- An entry of the bias row's block at point `t`. -/
theorem bias_block_apply (c : Dev nD) (t : Fin cfg0.N) (q : Fin 2048) (Q : Fin 4096)
    (hQ : Q.val = 2048 * (t.val / 4 % 2) + q.val) :
    iblk m c 2 t (ix2 (0 : Fin 1) q) = V m c main_v20 (ix2 (0 : Fin 1) Q) := by
  obtain ⟨-, -, -, -, e0, e1, -⟩ := idx_facts t
  unfold iblk
  rw [View.read_apply]
  refine congrArg (V m c main_v20) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = Q.val; rw [e1, hQ]; omega

/-- Where entry `(p, q)` of the output block of point `t` sits in the result array. -/
theorem out_block_emb (t : Fin cfg0.N) (p : Fin 1024) (q : Fin 2048) (P : Fin 8192) (Q : Fin 4096)
    (hP : P.val = 1024 * (t.val / 8) + p.val) (hQ : Q.val = 2048 * (t.val / 4 % 2) + q.val) :
    ((cfg0.win 3).blk t).view.emb (ix2 p q) = ix2 P Q := by
  obtain ⟨-, -, -, -, -, -, e0, e1⟩ := idx_facts t
  refine funext fun a => Fin.ext ?_
  match a with
  | ⟨0, _⟩ => show win0_3.index t (0 : Fin 2) * 1024 + 1 * p.val = P.val; rw [e0, hP]; omega
  | ⟨1, _⟩ => show win0_3.index t (1 : Fin 2) * 2048 + 1 * q.val = Q.val; rw [e1, hQ]; omega

end Cert.KernelIdeal.Blocks

end
-- ==== Proof.WholeArray.lean ====
/-
  The result array after the run, as one function of the arrays the region finds.

  Entry `(P, Q)` of the [8192, 4096] result is the four-block accumulated product of row `P` of the left operand
  with column `Q` of the weight, plus entry `Q` of the bias row (`blocked`).  The block written back at a flushing
  point is the restriction of that one function to the block's rectangle (`flushed_eq`): the four-step chain over
  the points `t-3 … t` reads exactly the four blocks of the contraction, in order.  The flushing points' blocks tile
  the array (`cover`), so the array ends holding that function (`final`); the line after the call reshapes it to
  [4, 2048, 4096], row `2048 b + s` becoming `(b, s)` (`run`).
-/
import proofs.«173432_j10479720202377_2_alg».proof.Proof.Blocks

noncomputable section

open Idealize.ShloMosaic Idealize.ShloMosaic.TcCoe Idealize.SL.Sem
open Idealize.ShloMosaic.ValueIdx
open Idealize.ShloMosaic.Pipeline (Dat)

namespace Cert.KernelIdeal.Whole

open Cert.KernelIdeal Cert.KernelIdeal.Gen Cert.KernelIdeal.Acc Cert.KernelIdeal.Blocks

/-- Block `kb` of the contraction for result entry `(P, Q)`. -/
def blockSum (X : FVec Ideal S8192x4096 .bf16) (Wt : FVec Ideal S4096x4096 .bf16) (P : Fin 8192) (Q : Fin 4096)
    (kb : Fin 4) : EReal :=
  ∑ k : Fin 1024, X (ix2 P ⟨1024 * kb.val + k.val, by omega⟩) * Wt (ix2 ⟨1024 * kb.val + k.val, by omega⟩ Q)

/-- Result entry `(P, Q)`: the four blocks accumulated first to last from zero, then the bias. -/
def blocked (X : FVec Ideal S8192x4096 .bf16) (Wt : FVec Ideal S4096x4096 .bf16) (Bv : FVec Ideal S1x4096 .f32)
    (P : Fin 8192) (Q : Fin 4096) : EReal :=
  ((((0 + blockSum X Wt P Q 0) + blockSum X Wt P Q 1) + blockSum X Wt P Q 2) + blockSum X Wt P Q 3)
    + Bv (ix2 (0 : Fin 1) Q)

/-- The whole [8192, 4096] result. -/
def result2d (X : FVec Ideal S8192x4096 .bf16) (Wt : FVec Ideal S4096x4096 .bf16) (Bv : FVec Ideal S1x4096 .f32) :
    FVec Ideal S8192x4096 .f32 := fun j => blocked X Wt Bv (j 0) (j 1)

theorem result2d_apply (X : FVec Ideal S8192x4096 .bf16) (Wt : FVec Ideal S4096x4096 .bf16) (Bv : FVec Ideal S1x4096 .f32)
    (P : Fin 8192) (Q : Fin 4096) : result2d X Wt Bv (ix2 P Q) = blocked X Wt Bv P Q := rfl

variable (m : (ℓ : Loc nD τ sig) → Buf (Elt Ideal) ℓ) (ρ : Dev nD → PrngReg)

/-- The blocks the body is handed at point `t`, at their literal vector types. -/
abbrev xBlk (c : Dev nD) (t : Fin cfg0.N) : FVec Ideal S1024x1024 .bf16 := iblk m c 0 t
abbrev wBlk (c : Dev nD) (t : Fin cfg0.N) : FVec Ideal S1024x2048 .bf16 := iblk m c 1 t
abbrev bBlk (c : Dev nD) (t : Fin cfg0.N) : FVec Ideal S1x2048 .f32 := iblk m c 2 t

/-- The product of the two input blocks of point `t`, at `(p, q)`, is block `t % 4` of the contraction for the
    result entry that `(p, q)` of the point's output block is. -/
theorem blockSum_at (c : Dev nD) (t : Fin cfg0.N) (p : Fin 1024) (q : Fin 2048) (P : Fin 8192) (Q : Fin 4096) (kb : Fin 4)
    (hk : t.val % 4 = kb.val) (hP : P.val = 1024 * (t.val / 8) + p.val) (hQ : Q.val = 2048 * (t.val / 4 % 2) + q.val) :
    ∑ k : Fin 1024, xBlk m c t (ix2 p k) * wBlk m c t (ix2 k q)
      = blockSum (V m c main_v19) (V m c main_v17) P Q kb := by
  unfold blockSum
  refine Finset.sum_congr rfl fun k _ => ?_
  have hkb := kb.isLt
  have hkk := k.isLt
  have hK : 1024 * kb.val + k.val < 4096 := by omega
  rw [show xBlk m c t (ix2 p k) = V m c main_v19 (ix2 P ⟨1024 * kb.val + k.val, hK⟩) from
      lhs_block_apply m c t p k P ⟨1024 * kb.val + k.val, hK⟩ hP (by show 1024 * kb.val + k.val = _; rw [hk]),
    show wBlk m c t (ix2 k q) = V m c main_v17 (ix2 ⟨1024 * kb.val + k.val, hK⟩ Q) from
      rhs_block_apply m c t k q ⟨1024 * kb.val + k.val, hK⟩ Q (by show 1024 * kb.val + k.val = _; rw [hk]) hQ]

set_option maxHeartbeats 1000000 in
/-- What a flushing point writes back is its block of `result2d` of the arrays the region finds. -/
theorem flushed_eq (c : Dev nD) (t : Fin cfg0.N) (hf : (cfg0.win 3).flush t = true) :
    (dats m 0 c).flushed 3 t
      = ((cfg0.win 3).blk t).view.read (Elt Ideal) (result2d (V m c main_v19) (V m c main_v17) (V m c main_v20)) := by
  have h3 : t.val % 4 = 3 := (flush0_3 t).mp hf
  have hN : t.val < 64 := lt_of_lt_of_eq t.isLt (show cfg0.N = 64 from N_0)
  show (cfg0.win 3).cut (grid0.coords t) ((dats m 0 c).after 3 t) = _
  rw [after0_3, out_chain m c t h3]
  refine funext fun (y : S1024x2048.Idx) => ?_
  obtain ⟨p, q, rfl⟩ : ∃ (p : Fin 1024) (q : Fin 2048), y = ix2 p q := ⟨y 0, y 1, eq_ix2 y⟩
  have hp := p.isLt
  have hq := q.isLt
  have hP : 1024 * (t.val / 8) + p.val < 8192 := by omega
  have hQ : 2048 * (t.val / 4 % 2) + q.val < 4096 := by omega
  rw [View.read_apply, out_block_emb t p q ⟨_, hP⟩ ⟨_, hQ⟩ rfl rfl, result2d_apply]
  refine (chain_apply (xBlk m c (prev (prev (prev t)))) (xBlk m c (prev (prev t))) (xBlk m c (prev t)) (xBlk m c t)
    (wBlk m c (prev (prev (prev t)))) (wBlk m c (prev (prev t))) (wBlk m c (prev t)) (wBlk m c t) (bBlk m c t) p q).trans ?_
  have e1 : (prev t).val = t.val - 1 := rfl
  have e2 : (prev (prev t)).val = t.val - 1 - 1 := rfl
  have e3 : (prev (prev (prev t))).val = t.val - 1 - 1 - 1 := rfl
  rw [blockSum_at m c (prev (prev (prev t))) p q ⟨_, hP⟩ ⟨_, hQ⟩ 0 (by rw [e3]; show _ = 0; omega)
      (by rw [e3]; show 1024 * (t.val / 8) + p.val = _; omega) (by rw [e3]; show 2048 * (t.val / 4 % 2) + q.val = _; omega),
    blockSum_at m c (prev (prev t)) p q ⟨_, hP⟩ ⟨_, hQ⟩ 1 (by rw [e2]; show _ = 1; omega)
      (by rw [e2]; show 1024 * (t.val / 8) + p.val = _; omega) (by rw [e2]; show 2048 * (t.val / 4 % 2) + q.val = _; omega),
    blockSum_at m c (prev t) p q ⟨_, hP⟩ ⟨_, hQ⟩ 2 (by rw [e1]; show _ = 2; omega)
      (by rw [e1]; show 1024 * (t.val / 8) + p.val = _; omega) (by rw [e1]; show 2048 * (t.val / 4 % 2) + q.val = _; omega),
    blockSum_at m c t p q ⟨_, hP⟩ ⟨_, hQ⟩ 3 (by show _ = 3; omega) rfl rfl,
    show bBlk m c t (ix2 (0 : Fin 1) q) = V m c main_v20 (ix2 (0 : Fin 1) ⟨_, hQ⟩) from bias_block_apply m c t q ⟨_, hQ⟩ rfl]
  rfl

/-- An index of the result array is in point `t`'s output block iff each coordinate is in the block's range. -/
theorem mem_blk (t : Fin cfg0.N) (i : S8192x4096.Idx) :
    i ∈ ((cfg0.win 3).blk t).view.set
      ↔ ∀ a : Fin 2, win0_3.index t a * S1024x2048.size a ≤ (i a).val
          ∧ (i a).val < win0_3.index t a * S1024x2048.size a + S1024x2048.size a := by
  show i ∈ ((View.whole main_v21).slice (win0_3.rect t)).set ↔ _
  rw [View.set_slice_whole, Rect.mem_set_unit]
  exact Iff.rfl

/-- Every index of the result array is in some flushing point's block: the one of its row block and column block,
    at the last block of the contraction. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨8 * ((i 0).val / 1024) + 4 * ((i 1).val / 2048) + 3, by rw [hN]; omega⟩
  have ht : t.val = 8 * ((i 0).val / 1024) + 4 * ((i 1).val / 2048) + 3 := rfl
  obtain ⟨-, -, -, -, -, -, e0, e1⟩ := idx_facts t
  refine ⟨t, (flush0_3 t).mpr (by rw [ht]; omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 2048 ≤ (i 1).val ∧ (i 1).val < win0_3.index t (1 : Fin 2) * 2048 + 2048
    rw [e1, ht]; omega

/-- The result array after the region. -/
theorem final (c : Dev nD) :
    (dats m 0 c).arrAt 3 cfg0.N = result2d (V m c main_v19) (V m c main_v17) (V m c main_v20) :=
  (dats m 0 c).arrAt_eq_of_cover 3 _ (flushed_eq m c) cover

end Cert.KernelIdeal.Whole

end
-- ==== Proof.Weight.lean ====
/-
  The folded weight's entry, as a formula in the entries of the thin factors:
      wt (K, o) = (W (o, K) + 4 · Σ_r A (r, K) · B (o, r)) + 2 · Σ_r' (Σ_q (Σ_r A1 (r, K) · A2 (q, r)) · B1 (r', q)) · B2 (o, r'),
  the scaling factors being the f32 words of 4 and 2.  Both the kernel's host lines and the comparison with the
  reference speak of this one formula.
-/
import Idealize.ShloMosaic.PureOps.Ideal
import Idealize.ShloMosaic.Lib.ValueIdx

noncomputable section

open Idealize.ShloMosaic
open Idealize.ShloMosaic.ValueIdx

namespace Cert.Weight

/-- Entry `(K, o)` of the transposed effective weight. -/
def entry (W : FVec Ideal ⟨2, ![4096, 4096]⟩ .f32) (A : FVec Ideal ⟨2, ![64, 4096]⟩ .f32) (B : FVec Ideal ⟨2, ![4096, 64]⟩ .f32)
    (A1 : FVec Ideal ⟨2, ![32, 4096]⟩ .f32) (A2 : FVec Ideal ⟨2, ![64, 32]⟩ .f32) (B1 : FVec Ideal ⟨2, ![32, 64]⟩ .f32)
    (B2 : FVec Ideal ⟨2, ![4096, 32]⟩ .f32) (K o : Fin 4096) : EReal :=
  (W (ix2 o K) + Ideal.ofBits .f32 0x40800000#32 * ∑ r : Fin 64, A (ix2 r K) * B (ix2 o r))
    + Ideal.ofBits .f32 0x40000000#32
      * ∑ r' : Fin 32, (∑ q : Fin 64, (∑ r : Fin 32, A1 (ix2 r K) * A2 (ix2 q r)) * B1 (ix2 r' q)) * B2 (ix2 o r')

end Cert.Weight

end
-- ==== Proof.Operands.lean ====
/-
  The three arrays the pallas_call is handed, in terms of the program's arguments.

  Before the call the host lines reshape the input [4, 2048, 4096] to [8192, 4096] (row `2048 b + s`), reshape the
  bias [4096] to one row [1, 4096], and fold the thin factors into one transposed weight
      wt = Wᵀ + 4 · (Aᵀ Bᵀ) + 2 · (((A1ᵀ A2ᵀ) B1ᵀ) B2ᵀ);
  the input and the weight are then converted to bf16, which at the ideal values changes nothing.  Read at an index,
  at the ideal values:  wt (i, o) = (W (o, i) + 4 · Σ_r A (r, i) · B (o, r))
                                    + 2 · Σ_r' (Σ_q (Σ_r A1 (r, i) · A2 (q, r)) · B1 (r', q)) · B2 (o, r').
-/
import proofs.«173432_j10479720202377_2_alg».proof.Defs
import proofs.«173432_j10479720202377_2_alg».proof.Proof.Gen.KernelIdeal.Frame
import proofs.«173432_j10479720202377_2_alg».proof.Proof.LibPlainDot
import proofs.«173432_j10479720202377_2_alg».proof.Proof.Weight
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.ValueIdx

namespace Cert.KernelIdeal.Operands

open Cert.KernelIdeal Cert.KernelIdeal.Gen

/-! ## The host lines before the call, as terms of the arguments -/

section Terms

variable {F : FTy → Type} [FloatOps F]

/-- The transposed effective weight as the host lines compute it (before the conversion to bf16). -/
def foldedWeight (W : FVec F S4096x4096 .f32) (A : FVec F S64x4096 .f32) (B : FVec F S4096x64 .f32)
    (A1 : FVec F S32x4096 .f32) (A2 : FVec F S64x32 .f32) (B1 : FVec F S32x64 .f32) (B2 : FVec F S4096x32 .f32) :
    FVec F S4096x4096 .f32 :=
  addf
    (addf (transpose S4096x4096 [1, 0] W transposes_S4096x4096_S4096x4096_1_0)
      (mulf (broadcastInDim S4096x4096 ![] bcast_S_S4096x4096 (constant (F := F) S_ .f32 0x40800000#32))
        (Host.dotGeneral dot_S4096x64_S64x4096_S4096x4096_1_0_0_1_n_n none
          (transpose S4096x64 [1, 0] A transposes_S64x4096_S4096x64_1_0)
          (transpose S64x4096 [1, 0] B transposes_S4096x64_S64x4096_1_0))))
    (mulf (broadcastInDim S4096x4096 ![] bcast_S_S4096x4096 (constant (F := F) S_ .f32 0x40000000#32))
      (Host.dotGeneral dot_S4096x32_S32x4096_S4096x4096_1_0_0_1_n_n none
        (Host.dotGeneral dot_S4096x64_S64x32_S4096x32_1_0_0_1_n_n none
          (Host.dotGeneral dot_S4096x32_S32x64_S4096x64_1_0_0_1_n_n none
            (transpose S4096x32 [1, 0] A1 transposes_S32x4096_S4096x32_1_0)
            (transpose S32x64 [1, 0] A2 transposes_S64x32_S32x64_1_0))
          (transpose S64x32 [1, 0] B1 transposes_S32x64_S64x32_1_0))
        (transpose S32x4096 [1, 0] B2 transposes_S4096x32_S32x4096_1_0)))

variable (m : (ℓ : Loc nD τ sig) → Buf (Elt F) ℓ)

/-- The left operand the call is handed: the input reshaped to [8192, 4096] and converted. -/
theorem lhs_eq (c : Dev nD) :
    V m c main_v19
      = truncf .bf16 (shapeCast S8192x4096 (m ((c : Thread nD τ).loc main_arg0)) shapeCasts_S4x2048x4096_S8192x4096)
          bitsLt_bf16_f32 := by
  show StableHlo.after hostOps0 (fun b => m (c, b)) (Proc.devRef .tc main_v19) = _
  after_results
  rfl

/-- The bias the call is handed: the bias vector as one row. -/
theorem bias_eq (c : Dev nD) :
    V m c main_v20 = shapeCast S1x4096 (m ((c : Thread nD τ).loc main_arg2)) shapeCasts_S4096_S1x4096 := by
  show StableHlo.after hostOps0 (fun b => m (c, b)) (Proc.devRef .tc main_v20) = _
  after_results
  rfl

set_option maxHeartbeats 4000000 in
/-- The weight the call is handed: the folded weight, converted. -/
theorem rhs_eq (c : Dev nD) :
    V m c main_v17
      = truncf .bf16
          (foldedWeight (m ((c : Thread nD τ).loc main_arg1)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)))
          bitsLt_bf16_f32 := by
  show StableHlo.after hostOps0 (fun b => m (c, b)) (Proc.devRef .tc main_v17) = _
  after_results
  rfl

end Terms

/-! ## The same, at an index, at the ideal values -/

/-- A scalar literal spread over an array reads the literal everywhere. -/
theorem scalar_bcast_apply {s : Shape} (bc : (⟨0, ![]⟩ : Shape).BroadcastsInDim s (![] : Fin 0 → Fin s.rank))
    (w : BitVec 32) (i : s.Idx) :
    broadcastInDim s ![] bc (constant (F := Ideal) ⟨0, ![]⟩ .f32 w) i = Ideal.ofBits .f32 w :=
  broadcastInDim_apply _ bc _ i ix0 (fun a => a.elim0)

/-- The folded weight at `(i, o)`. -/
theorem foldedWeight_apply (W : FVec Ideal S4096x4096 .f32) (A : FVec Ideal S64x4096 .f32) (B : FVec Ideal S4096x64 .f32)
    (A1 : FVec Ideal S32x4096 .f32) (A2 : FVec Ideal S64x32 .f32) (B1 : FVec Ideal S32x64 .f32)
    (B2 : FVec Ideal S4096x32 .f32) (i o : Fin 4096) :
    foldedWeight (F := Ideal) W A B A1 A2 B1 B2 (ix2 i o) = Weight.entry W A B A1 A2 B1 B2 i o := by
  have d1 : ∀ (l : FVec Ideal S4096x64 .f32) (r : FVec Ideal S64x4096 .f32) (p q : Fin 4096),
      Host.dotGeneral dot_S4096x64_S64x4096_S4096x4096_1_0_0_1_n_n none l r (ix2 p q)
        = ∑ k : Fin 64, l (ix2 p k) * r (ix2 k q) :=
    fun l r p q => PlainDot.dotGeneral_apply _ rfl none .single l r p q
  have d2 : ∀ (l : FVec Ideal S4096x32 .f32) (r : FVec Ideal S32x64 .f32) (p : Fin 4096) (q : Fin 64),
      Host.dotGeneral dot_S4096x32_S32x64_S4096x64_1_0_0_1_n_n none l r (ix2 p q)
        = ∑ k : Fin 32, l (ix2 p k) * r (ix2 k q) :=
    fun l r p q => PlainDot.dotGeneral_apply _ rfl none .single l r p q
  have d3 : ∀ (l : FVec Ideal S4096x64 .f32) (r : FVec Ideal S64x32 .f32) (p : Fin 4096) (q : Fin 32),
      Host.dotGeneral dot_S4096x64_S64x32_S4096x32_1_0_0_1_n_n none l r (ix2 p q)
        = ∑ k : Fin 64, l (ix2 p k) * r (ix2 k q) :=
    fun l r p q => PlainDot.dotGeneral_apply _ rfl none .single l r p q
  have d4 : ∀ (l : FVec Ideal S4096x32 .f32) (r : FVec Ideal S32x4096 .f32) (p q : Fin 4096),
      Host.dotGeneral dot_S4096x32_S32x4096_S4096x4096_1_0_0_1_n_n none l r (ix2 p q)
        = ∑ k : Fin 32, l (ix2 p k) * r (ix2 k q) :=
    fun l r p q => PlainDot.dotGeneral_apply _ rfl none .single l r p q
  have tW : ∀ j i : Fin 4096, transpose S4096x4096 [1, 0] W transposes_S4096x4096_S4096x4096_1_0 (ix2 j i) = W (ix2 i j) :=
    fun j i => transpose_ix2_apply W _ j i
  have tA : ∀ (j : Fin 4096) (i : Fin 64), transpose S4096x64 [1, 0] A transposes_S64x4096_S4096x64_1_0 (ix2 j i) = A (ix2 i j) :=
    fun j i => transpose_ix2_apply A _ j i
  have tB : ∀ (j : Fin 64) (i : Fin 4096), transpose S64x4096 [1, 0] B transposes_S4096x64_S64x4096_1_0 (ix2 j i) = B (ix2 i j) :=
    fun j i => transpose_ix2_apply B _ j i
  have tA1 : ∀ (j : Fin 4096) (i : Fin 32), transpose S4096x32 [1, 0] A1 transposes_S32x4096_S4096x32_1_0 (ix2 j i) = A1 (ix2 i j) :=
    fun j i => transpose_ix2_apply A1 _ j i
  have tA2 : ∀ (j : Fin 32) (i : Fin 64), transpose S32x64 [1, 0] A2 transposes_S64x32_S32x64_1_0 (ix2 j i) = A2 (ix2 i j) :=
    fun j i => transpose_ix2_apply A2 _ j i
  have tB1 : ∀ (j : Fin 64) (i : Fin 32), transpose S64x32 [1, 0] B1 transposes_S32x64_S64x32_1_0 (ix2 j i) = B1 (ix2 i j) :=
    fun j i => transpose_ix2_apply B1 _ j i
  have tB2 : ∀ (j : Fin 32) (i : Fin 4096), transpose S32x4096 [1, 0] B2 transposes_S4096x32_S32x4096_1_0 (ix2 j i) = B2 (ix2 i j) :=
    fun j i => transpose_ix2_apply B2 _ j i
  have c4 : ∀ j : S4096x4096.Idx, broadcastInDim S4096x4096 ![] bcast_S_S4096x4096 (constant (F := Ideal) S_ .f32 0x40800000#32) j
      = Ideal.ofBits .f32 0x40800000#32 := fun j => scalar_bcast_apply _ _ j
  have c2 : ∀ j : S4096x4096.Idx, broadcastInDim S4096x4096 ![] bcast_S_S4096x4096 (constant (F := Ideal) S_ .f32 0x40000000#32) j
      = Ideal.ofBits .f32 0x40000000#32 := fun j => scalar_bcast_apply _ _ j
  unfold foldedWeight Weight.entry
  simp only [addf_apply, mulf_apply, d1, d2, d3, d4, tW, tA, tB, tA1, tA2, tB1, tB2, c4, c2]

/-! ## The three operands at an index, at the ideal values -/

section Entries

variable (m : (ℓ : Loc nD τ sig) → Buf (Elt Ideal) ℓ)

/-- Row `2048 b + s`, column `K` of the left operand is the input at `(b, s, K)`. -/
theorem lhs_apply (c : Dev nD) (b : Fin 4) (s : Fin 2048) (K : Fin 4096) (P : Fin 8192) (hP : P.val = 2048 * b.val + s.val) :
    V m c main_v19 (ix2 P K) = m ((c : Thread nD τ).loc main_arg0) (ix3 b s K) := by
  have key : ∀ x : FVec Ideal S4x2048x4096 .f32,
      shapeCast S8192x4096 x shapeCasts_S4x2048x4096_S8192x4096 (ix2 P K) = x (ix3 b s K) := fun x =>
    shapeCast_apply x _ (ix2 P K) (ix3 b s K) (by
      rw [Shape.rowMajor_val_three, Shape.rowMajor_val_two]
      show (b.val * 2048 + s.val) * 4096 + K.val = P.val * 4096 + K.val
      rw [hP]; omega)
  rw [lhs_eq]
  exact key _

/-- Entry `Q` of the bias row is entry `Q` of the bias vector. -/
theorem bias_apply (c : Dev nD) (Q : Fin 4096) :
    V m c main_v20 (ix2 (0 : Fin 1) Q) = m ((c : Thread nD τ).loc main_arg2) (ix1 Q) := by
  rw [bias_eq]
  exact shapeCast_a_1a_apply _ _ 0 Q

/-- Entry `(K, Q)` of the weight the call is handed is the folded weight's. -/
theorem rhs_apply (c : Dev nD) (K Q : Fin 4096) :
    V m c main_v17 (ix2 K Q)
      = Weight.entry (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) K Q := by
  rw [rhs_eq]
  exact foldedWeight_apply _ _ _ _ _ _ _ K Q

end Entries

end Cert.KernelIdeal.Operands

end
-- ==== Proof.LibLoraFold.lean ====
/-
  The algebra that joins the two programs, over the real numbers and abstract finite index types.

  A dense layer with two low-rank corrections can be evaluated in two ways.  Folding first: build the
  effective weight  Wᵀ + c₁ · (Aᵀ Bᵀ) + c₂ · (A1ᵀ A2ᵀ B1ᵀ B2ᵀ)  once and multiply the input row by it.
  Chaining: send the input row through each thin factor in turn and add the three results.  Both are the
  same number because matrix multiplication is associative and distributes over sums and scalar
  multiples; entry by entry this is the statement below.
-/
import Mathlib.Data.Matrix.Basic
import Mathlib.Data.Real.Basic
import Mathlib.Algebra.BigOperators.Group.Finset.Basic
import Mathlib.Tactic.Ring
import Mathlib.Tactic.Linarith

open scoped BigOperators

namespace LoraFold

variable {M I O P Q : Type*} [Fintype I] [Fintype O] [Fintype P] [Fintype Q]

/-- The folded effective weight at row `i` (an input feature) and column `o` (an output feature). -/
def weight (c₁ c₂ : ℝ) (W : O → I → ℝ) (A : P → I → ℝ) (B : O → P → ℝ) (A1 : Q → I → ℝ) (A2 : P → Q → ℝ)
    (B1 : Q → P → ℝ) (B2 : O → Q → ℝ) (i : I) (o : O) : ℝ :=
  (W o i + c₁ * ∑ r, A r i * B o r) + c₂ * ∑ r', (∑ q, (∑ r, A1 r i * A2 q r) * B1 r' q) * B2 o r'

/-- Folding the thin factors into one weight and multiplying once is the same as chaining the input row
    through the factors: associativity and distributivity of the matrix product, read at one entry. -/
theorem fold_eq_chain (c₁ c₂ : ℝ) (X : M → I → ℝ) (W : O → I → ℝ) (bias : O → ℝ) (A : P → I → ℝ) (B : O → P → ℝ)
    (A1 : Q → I → ℝ) (A2 : P → Q → ℝ) (B1 : Q → P → ℝ) (B2 : O → Q → ℝ) (p : M) (o : O) :
    (∑ i, X p i * weight c₁ c₂ W A B A1 A2 B1 B2 i o) + bias o
      = ((∑ i, X p i * W o i + bias o) + c₁ * ∑ r, (∑ i, X p i * A r i) * B o r)
        + c₂ * ∑ r', (∑ q, (∑ r, (∑ i, X p i * A1 r i) * A2 q r) * B1 r' q) * B2 o r' := by
  classical
  let Xm : Matrix M I ℝ := Matrix.of X
  let Wm : Matrix O I ℝ := Matrix.of W
  let Am : Matrix P I ℝ := Matrix.of A
  let Bm : Matrix O P ℝ := Matrix.of B
  let A1m : Matrix Q I ℝ := Matrix.of A1
  let A2m : Matrix P Q ℝ := Matrix.of A2
  let B1m : Matrix Q P ℝ := Matrix.of B1
  let B2m : Matrix O Q ℝ := Matrix.of B2
  have key : Xm * (Wm.transpose + c₁ • (Am.transpose * Bm.transpose)
        + c₂ • (A1m.transpose * A2m.transpose * B1m.transpose * B2m.transpose))
      = Xm * Wm.transpose + c₁ • (Xm * Am.transpose * Bm.transpose)
        + c₂ • (Xm * A1m.transpose * A2m.transpose * B1m.transpose * B2m.transpose) := by
    simp only [Matrix.mul_add, Matrix.mul_smul, Matrix.mul_assoc]
  have h := congrFun (congrFun key p) o
  simp only [Matrix.mul_apply, Matrix.add_apply, Matrix.smul_apply, Matrix.transpose_apply, Matrix.of_apply,
    smul_eq_mul, Xm, Wm, Am, Bm, A1m, A2m, B1m, B2m] at h
  unfold weight
  rw [h]
  ring

end LoraFold
-- ==== Proof.LibLoraFoldEReal.lean ====
/-
  The fold/chain identity of `LibLoraFold` for arrays whose entries are real numbers read as extended reals.

  On the extended reals distributivity fails at the infinities, so the identity is only claimed where every entry is
  (the image of) a real number: there sums and products of entries are again images of real numbers
  (`coe_sum`), both sides are the image of the corresponding real expressions, and those agree by
  `LoraFold.fold_eq_chain`.

  Independently of finiteness, a sum over `4096` positions accumulated in four consecutive blocks of `1024`,
  starting from zero, is the whole sum: addition of extended reals is associative and commutative (`sum_four_blocks`).
-/
import Mathlib.Data.EReal.Operations
import Mathlib.Algebra.BigOperators.Fin
import Mathlib.Algebra.BigOperators.Group.Finset.Sigma
import proofs.«173432_j10479720202377_2_alg».proof.Proof.LibLoraFold

open scoped BigOperators

namespace LoraFold

/-- A finite sum of real numbers, read in the extended reals term by term, is the real sum read there. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Accumulating a sum over `4096` positions block by block (four blocks of `1024`, first to last, from zero)
    gives the whole sum. -/
theorem sum_four_blocks (f : Fin 4096 → EReal) :
    ((((0 + ∑ b : Fin 1024, f ⟨1024 * 0 + b.val, by omega⟩) + ∑ b : Fin 1024, f ⟨1024 * 1 + b.val, by omega⟩)
        + ∑ b : Fin 1024, f ⟨1024 * 2 + b.val, by omega⟩) + ∑ b : Fin 1024, f ⟨1024 * 3 + b.val, by omega⟩)
      = ∑ i : Fin 4096, f i := by
  have e : ∑ i : Fin 4096, f i = ∑ a : Fin 4, ∑ b : Fin 1024, f ⟨1024 * a.val + b.val, by omega⟩ := by
    rw [← Fintype.sum_prod_type']
    refine (Fintype.sum_equiv (finProdFinEquiv (m := 4) (n := 1024)) _ _ fun ab => ?_).symm
    refine congrArg f (Fin.ext ?_)
    show 1024 * ab.1.val + ab.2.val = ab.2.val + 1024 * ab.1.val
    omega
  rw [e, Fin.sum_univ_four, zero_add]
  rfl

variable {I O P Q : Type*} [Fintype I] [Fintype O] [Fintype P] [Fintype Q]

/-- The fold/chain identity on the extended reals, for arrays of real numbers and real scaling factors. -/
theorem fold_eq_chain_ereal (c₁ c₂ : ℝ) (X : I → ℝ) (W : O → I → ℝ) (bias : O → ℝ) (A : P → I → ℝ) (B : O → P → ℝ)
    (A1 : Q → I → ℝ) (A2 : P → Q → ℝ) (B1 : Q → P → ℝ) (B2 : O → Q → ℝ) (o : O) :
    (∑ i, (X i : EReal) * (((W o i : EReal) + (c₁ : EReal) * ∑ r, (A r i : EReal) * (B o r : EReal))
          + (c₂ : EReal) * ∑ r', (∑ q, (∑ r, (A1 r i : EReal) * (A2 q r : EReal)) * (B1 r' q : EReal)) * (B2 o r' : EReal)))
        + (bias o : EReal)
      = ((∑ i, (X i : EReal) * (W o i : EReal) + (bias o : EReal))
          + (c₁ : EReal) * ∑ r, (∑ i, (X i : EReal) * (A r i : EReal)) * (B o r : EReal))
        + (c₂ : EReal) * ∑ r', (∑ q, (∑ r, (∑ i, (X i : EReal) * (A1 r i : EReal)) * (A2 q r : EReal)) * (B1 r' q : EReal))
            * (B2 o r' : EReal) := by
  have h := fold_eq_chain (M := Unit) c₁ c₂ (fun _ => X) W bias A B A1 A2 B1 B2 () o
  unfold weight at h
  simp only [← EReal.coe_mul, ← EReal.coe_add, coe_sum]
  exact congrArg _ h

end LoraFold
-- ==== Proof.ReferenceEntry.lean ====
/-
  One entry of the reference's result, as a formula in the entries of the argument arrays.

  The reference chains the input row through the thin factors:  the base term  Σ_i x[b,s,i] · W[o,i] + bias[o],
  four times the rank-64 correction  Σ_r (Σ_i x[b,s,i] · A[r,i]) · B[o,r],  and twice the rank-32 cascade
  Σ_r' (Σ_q (Σ_r (Σ_i x[b,s,i] · A1[r,i]) · A2[q,r]) · B1[r',q]) · B2[o,r'].
  Each contraction is a host dot_general contracting the left operand's last axis with the right operand's axis 1,
  read at an index by the generated stage lemmas; what is written here is only which entries the index maps name.
-/
import proofs.«173432_j10479720202377_2_alg».proof.Proof.Gen.ReferenceIdeal.Read
import Idealize.ShloMosaic.Lib.ValueIdx

noncomputable section

open Idealize.ShloMosaic Idealize.ShloMosaic.TcCoe Idealize.SL.Sem
open Idealize.ShloMosaic.ValueIdx

namespace Cert.ReferenceIdeal.Entry

open Cert.ReferenceIdeal Cert.ReferenceIdeal.Read

/-! ## The index maps, coordinate by coordinate -/

theorem l0 (b : Fin 4) (s : Fin 2048) (o : Fin 4096) (k : Fin 4096) : lidx_main_v0 (ix3 b s o) k = ix3 b s k :=
  funext fun a => by match a with | ⟨0, _⟩ => rfl | ⟨1, _⟩ => rfl | ⟨2, _⟩ => rfl
theorem r0 (b : Fin 4) (s : Fin 2048) (o : Fin 4096) (k : Fin 4096) : ridx_main_v0 (ix3 b s o) k = ix2 o k :=
  funext fun a => by match a with | ⟨0, _⟩ => rfl | ⟨1, _⟩ => rfl
theorem bias_idx (b : Fin 4) (s : Fin 2048) (o : Fin 4096) : idx_main_v1 (idx_main_v2 (ix3 b s o)) = ix1 o :=
  funext fun a => by match a with | ⟨0, _⟩ => rfl
theorem l5 (b : Fin 4) (s : Fin 2048) (o : Fin 4096) (k : Fin 64) : lidx_main_v5 (ix3 b s o) k = ix3 b s k :=
  funext fun a => by match a with | ⟨0, _⟩ => rfl | ⟨1, _⟩ => rfl | ⟨2, _⟩ => rfl
theorem r5 (b : Fin 4) (s : Fin 2048) (o : Fin 4096) (k : Fin 64) : ridx_main_v5 (ix3 b s o) k = ix2 o k :=
  funext fun a => by match a with | ⟨0, _⟩ => rfl | ⟨1, _⟩ => rfl
theorem l4 (b : Fin 4) (s : Fin 2048) (r : Fin 64) (k : Fin 4096) : lidx_main_v4 (ix3 b s r) k = ix3 b s k :=
  funext fun a => by match a with | ⟨0, _⟩ => rfl | ⟨1, _⟩ => rfl | ⟨2, _⟩ => rfl
theorem r4 (b : Fin 4) (s : Fin 2048) (r : Fin 64) (k : Fin 4096) : ridx_main_v4 (ix3 b s r) k = ix2 r k :=
  funext fun a => by match a with | ⟨0, _⟩ => rfl | ⟨1, _⟩ => rfl
theorem l9 (b : Fin 4) (s : Fin 2048) (o : Fin 4096) (k : Fin 32) : lidx_main_v9 (ix3 b s o) k = ix3 b s k :=
  funext fun a => by match a with | ⟨0, _⟩ => rfl | ⟨1, _⟩ => rfl | ⟨2, _⟩ => rfl
theorem r9 (b : Fin 4) (s : Fin 2048) (o : Fin 4096) (k : Fin 32) : ridx_main_v9 (ix3 b s o) k = ix2 o k :=
  funext fun a => by match a with | ⟨0, _⟩ => rfl | ⟨1, _⟩ => rfl
theorem l8 (b : Fin 4) (s : Fin 2048) (r : Fin 32) (k : Fin 64) : lidx_main_v8 (ix3 b s r) k = ix3 b s k :=
  funext fun a => by match a with | ⟨0, _⟩ => rfl | ⟨1, _⟩ => rfl | ⟨2, _⟩ => rfl
theorem r8 (b : Fin 4) (s : Fin 2048) (r : Fin 32) (k : Fin 64) : ridx_main_v8 (ix3 b s r) k = ix2 r k :=
  funext fun a => by match a with | ⟨0, _⟩ => rfl | ⟨1, _⟩ => rfl
theorem l7 (b : Fin 4) (s : Fin 2048) (r : Fin 64) (k : Fin 32) : lidx_main_v7 (ix3 b s r) k = ix3 b s k :=
  funext fun a => by match a with | ⟨0, _⟩ => rfl | ⟨1, _⟩ => rfl | ⟨2, _⟩ => rfl
theorem r7 (b : Fin 4) (s : Fin 2048) (r : Fin 64) (k : Fin 32) : ridx_main_v7 (ix3 b s r) k = ix2 r k :=
  funext fun a => by match a with | ⟨0, _⟩ => rfl | ⟨1, _⟩ => rfl
theorem l6 (b : Fin 4) (s : Fin 2048) (r : Fin 32) (k : Fin 4096) : lidx_main_v6 (ix3 b s r) k = ix3 b s k :=
  funext fun a => by match a with | ⟨0, _⟩ => rfl | ⟨1, _⟩ => rfl | ⟨2, _⟩ => rfl
theorem r6 (b : Fin 4) (s : Fin 2048) (r : Fin 32) (k : Fin 4096) : ridx_main_v6 (ix3 b s r) k = ix2 r k :=
  funext fun a => by match a with | ⟨0, _⟩ => rfl | ⟨1, _⟩ => rfl

/-! ## The result at an index -/

/-- The reference's result at `(b, s, o)`: base term plus bias, plus four times the rank-64 chain, plus twice the
    rank-32 cascade. -/
theorem result_apply (x : FVec Ideal S4x2048x4096 .f32) (W : FVec Ideal S4096x4096 .f32) (bias : FVec Ideal S4096 .f32)
    (A : FVec Ideal S64x4096 .f32) (B : FVec Ideal S4096x64 .f32) (A1 : FVec Ideal S32x4096 .f32)
    (A2 : FVec Ideal S64x32 .f32) (B1 : FVec Ideal S32x64 .f32) (B2 : FVec Ideal S4096x32 .f32)
    (b : Fin 4) (s : Fin 2048) (o : Fin 4096) :
    val_main_v15 (F := Ideal) x W bias A B A1 A2 B1 B2 (ix3 b s o)
      = ((∑ k : Fin 4096, x (ix3 b s k) * W (ix2 o k) + bias (ix1 o))
          + Ideal.ofBits .f32 0x40800000#32
            * ∑ r : Fin 64, (∑ k : Fin 4096, x (ix3 b s k) * A (ix2 r k)) * B (ix2 o r))
        + Ideal.ofBits .f32 0x40000000#32
          * ∑ r' : Fin 32, (∑ q : Fin 64, (∑ r : Fin 32, (∑ k : Fin 4096, x (ix3 b s k) * A1 (ix2 r k))
              * A2 (ix2 q r)) * B1 (ix2 r' q)) * B2 (ix2 o r') := by
  rw [val_main_v15_apply, val_main_v12_apply, val_main_v14_apply, val_main_v3_apply, val_main_v11_apply,
    val_main_v0_apply, val_main_v2_apply, val_main_v1_apply, val_main_v10_apply, val_main_cst_apply,
    val_main_v13_apply, val_main_cst_0_apply, val_main_v5_apply, val_main_v9_apply]
  simp only [val_main_v4_apply, val_main_v8_apply, val_main_v7_apply, val_main_v6_apply, l0, r0, bias_idx, l5, r5, l4, r4,
    l9, r9, l8, r8, l7, r7, l6, r6, Ideal.addf_def, Ideal.mulf_def, Ideal.ofBits_def]

end Cert.ReferenceIdeal.Entry

end
-- ==== Proof.Consts.lean ====
/-
  The two scaling literals of this certificate as real numbers: the f32 words `0x40800000` and `0x40000000` are
  `4` and `2`.  (They occur on both sides; their value matters only because distributing a factor over a sum of
  extended reals needs the factor to be finite.)
-/
import Idealize.ShloMosaic.PureOps.Ideal
import Idealize.ShloMosaic.PureOps.Ideal.Laws

noncomputable section

namespace Cert.Consts

open Idealize.ShloMosaic

theorem ofBits_four : Ideal.ofBits .f32 0x40800000#32 = ((4 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Consts

end
-- ==== Proof.Bridge.lean ====
/-
  The two programs' results agree entry by entry when every argument entry is a real number.

  For result entry `(b, s, o)` the kernel's value is the sum over the contracted positions `K`, taken in four blocks
  of 1024 from zero, of  x (b, s, K) · wt (K, o),  plus bias (o), where wt is the folded weight
      wt (K, o) = (W (o, K) + 4 · Σ_r A (r, K) · B (o, r)) + 2 · Σ_r' (Σ_q (Σ_r A1 (r, K) · A2 (q, r)) · B1 (r', q)) · B2 (o, r').
  The four blocks regroup to one sum over all 4096 positions (`LoraFold.sum_four_blocks`; no finiteness needed).
  The reference's value is the chained form (`Cert.ReferenceIdeal.Entry.result_apply`).  With every entry a real number
  both are images of real expressions, equal by associativity and distributivity of the matrix product
  (`LoraFold.fold_eq_chain_ereal`); the scaling literals are the real numbers 4 and 2.
-/
import proofs.«173432_j10479720202377_2_alg».proof.Proof.LibLoraFoldEReal
import proofs.«173432_j10479720202377_2_alg».proof.Proof.ReferenceEntry
import proofs.«173432_j10479720202377_2_alg».proof.Proof.Consts
import proofs.«173432_j10479720202377_2_alg».proof.Proof.Weight

noncomputable section

open Idealize.ShloMosaic
open Idealize.ShloMosaic.ValueIdx

namespace Cert.Bridge

open Cert.ReferenceIdeal

/-- The kernel's summand at contracted position `K` for result entry `(b, s, o)`: input entry times folded weight. -/
def term (x : FVec Ideal S4x2048x4096 .f32) (W : FVec Ideal S4096x4096 .f32) (A : FVec Ideal S64x4096 .f32)
    (B : FVec Ideal S4096x64 .f32) (A1 : FVec Ideal S32x4096 .f32) (A2 : FVec Ideal S64x32 .f32)
    (B1 : FVec Ideal S32x64 .f32) (B2 : FVec Ideal S4096x32 .f32) (b : Fin 4) (s : Fin 2048) (o : Fin 4096)
    (K : Fin 4096) : EReal :=
  x (ix3 b s K) * Weight.entry W A B A1 A2 B1 B2 K o

/-- The whole sum of the kernel's summands plus the bias is the reference's entry, for arrays of real numbers. -/
theorem folded_eq_reference (x : FVec Ideal S4x2048x4096 .f32) (W : FVec Ideal S4096x4096 .f32) (bias : FVec Ideal S4096 .f32)
    (A : FVec Ideal S64x4096 .f32) (B : FVec Ideal S4096x64 .f32) (A1 : FVec Ideal S32x4096 .f32)
    (A2 : FVec Ideal S64x32 .f32) (B1 : FVec Ideal S32x64 .f32) (B2 : FVec Ideal S4096x32 .f32)
    (hx : ∀ i, ∃ r : ℝ, x i = r) (hW : ∀ i, ∃ r : ℝ, W i = r) (hb : ∀ i, ∃ r : ℝ, bias i = r)
    (hA : ∀ i, ∃ r : ℝ, A i = r) (hB : ∀ i, ∃ r : ℝ, B i = r) (hA1 : ∀ i, ∃ r : ℝ, A1 i = r)
    (hA2 : ∀ i, ∃ r : ℝ, A2 i = r) (hB1 : ∀ i, ∃ r : ℝ, B1 i = r) (hB2 : ∀ i, ∃ r : ℝ, B2 i = r)
    (b : Fin 4) (s : Fin 2048) (o : Fin 4096) :
    (∑ K : Fin 4096, term x W A B A1 A2 B1 B2 b s o K) + bias (ix1 o)
      = Read.val_main_v15 (F := Ideal) x W bias A B A1 A2 B1 B2 (ix3 b s o) := by
  rw [Entry.result_apply]
  choose xr hxr using hx
  choose Wr hWr using hW
  choose br hbr using hb
  choose Ar hAr using hA
  choose Br hBr using hB
  choose A1r hA1r using hA1
  choose A2r hA2r using hA2
  choose B1r hB1r using hB1
  choose B2r hB2r using hB2
  simp only [term, Weight.entry, hxr, hWr, hbr, hAr, hBr, hA1r, hA2r, hB1r, hB2r, Consts.ofBits_four, Consts.ofBits_two]
  exact LoraFold.fold_eq_chain_ereal 4 2 (fun K => xr (ix3 b s K)) (fun o K => Wr (ix2 o K)) (fun o => br (ix1 o))
    (fun r K => Ar (ix2 r K)) (fun o r => Br (ix2 o r)) (fun r K => A1r (ix2 r K)) (fun q r => A2r (ix2 q r))
    (fun r' q => B1r (ix2 r' q)) (fun o r' => B2r (ix2 o r')) o

/-- The kernel's entry — the four blocks accumulated from zero, then the bias — is the reference's entry. -/
theorem blocked_eq_reference (x : FVec Ideal S4x2048x4096 .f32) (W : FVec Ideal S4096x4096 .f32) (bias : FVec Ideal S4096 .f32)
    (A : FVec Ideal S64x4096 .f32) (B : FVec Ideal S4096x64 .f32) (A1 : FVec Ideal S32x4096 .f32)
    (A2 : FVec Ideal S64x32 .f32) (B1 : FVec Ideal S32x64 .f32) (B2 : FVec Ideal S4096x32 .f32)
    (hx : ∀ i, ∃ r : ℝ, x i = r) (hW : ∀ i, ∃ r : ℝ, W i = r) (hb : ∀ i, ∃ r : ℝ, bias i = r)
    (hA : ∀ i, ∃ r : ℝ, A i = r) (hB : ∀ i, ∃ r : ℝ, B i = r) (hA1 : ∀ i, ∃ r : ℝ, A1 i = r)
    (hA2 : ∀ i, ∃ r : ℝ, A2 i = r) (hB1 : ∀ i, ∃ r : ℝ, B1 i = r) (hB2 : ∀ i, ∃ r : ℝ, B2 i = r)
    (b : Fin 4) (s : Fin 2048) (o : Fin 4096) :
    ((((0 + ∑ k : Fin 1024, term x W A B A1 A2 B1 B2 b s o ⟨1024 * 0 + k.val, by omega⟩)
          + ∑ k : Fin 1024, term x W A B A1 A2 B1 B2 b s o ⟨1024 * 1 + k.val, by omega⟩)
          + ∑ k : Fin 1024, term x W A B A1 A2 B1 B2 b s o ⟨1024 * 2 + k.val, by omega⟩)
          + ∑ k : Fin 1024, term x W A B A1 A2 B1 B2 b s o ⟨1024 * 3 + k.val, by omega⟩)
        + bias (ix1 o)
      = Read.val_main_v15 (F := Ideal) x W bias A B A1 A2 B1 B2 (ix3 b s o) := by
  rw [LoraFold.sum_four_blocks (term x W A B A1 A2 B1 B2 b s o)]
  exact folded_eq_reference x W bias A B A1 A2 B1 B2 hx hW hb hA hB hA1 hA2 hB1 hB2 b s o

end Cert.Bridge

end
-- ==== Proof.KernelResult.lean ====
/-
  The idealized kernel's run, with its result named.

  After the region the result array [8192, 4096] holds `Whole.result2d` of the arrays the region was handed
  (`Whole.final`); the one host line after the call reshapes it to [4, 2048, 4096], so entry `(b, s, o)` of the
  program's result is entry `(2048 b + s, o)` of that array.  In terms of the program's arguments this is the
  four-block accumulated sum of  x (b, s, K) · wt (K, o)  plus bias (o), wt the folded weight (`entry_eq`).
-/
import proofs.«173432_j10479720202377_2_alg».proof.Proof.WholeArray
import proofs.«173432_j10479720202377_2_alg».proof.Proof.Operands
import proofs.«173432_j10479720202377_2_alg».proof.Proof.Bridge

noncomputable section

open Idealize.ShloMosaic Idealize.ShloMosaic.TcCoe Idealize.SL.Sem
open Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The program's result: the region's result array reshaped to [4, 2048, 4096]. -/
def result (c : Dev nD) : Buf (Elt Ideal) ((c : Thread nD τ).loc main_v22) :=
  shapeCast S4x2048x4096 (Whole.result2d (V m c main_v19) (V m c main_v17) (V m c main_v20))
    shapeCasts_S8192x4096_S4x2048x4096

/-- The host line after the region leaves `result`. -/
theorem tail_eq (c : Dev nD) : Pipeline.afterTail₀ cfgs (dats m) 0 (V0 m) [hostOps1] c main_v22 = result m c := by
  unfold Pipeline.afterTail₀
  show StableHlo.after hostOps1 _ (Proc.devRef .tc main_v22) = _
  after_results
  rw [show Pipeline.withArrays (cfgs 0).spec c (V0 m c) (fun w => (dats m 0 c).arrAt w (cfgs 0).N)
        (Proc.devRef .tc main_v21) = Whole.result2d (V m c main_v19) (V m c main_v17) (V m c main_v20) from
      (Pipeline.withArrays_arr spec0 winFacts0.arr_inj c _ _ 3).trans (Whole.final m c)]
  rfl

/-- The run, read: the result at `result`, the nine arguments unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

/-- Entry `(b, s, o)` of the result in terms of the program's arguments: the four blocks of the contraction
    accumulated from zero, then the bias. -/
theorem entry_eq (c : Dev nD) (b : Fin 4) (s : Fin 2048) (o : Fin 4096) :
    result m c (ix3 b s o)
      = ((((0 + ∑ k : Fin 1024, Bridge.term (m ((c : Thread nD τ).loc main_arg0)) (m ((c : Thread nD τ).loc main_arg1))
                  (m ((c : Thread nD τ).loc main_arg3)) (m ((c : Thread nD τ).loc main_arg4)) (m ((c : Thread nD τ).loc main_arg5))
                  (m ((c : Thread nD τ).loc main_arg6)) (m ((c : Thread nD τ).loc main_arg7)) (m ((c : Thread nD τ).loc main_arg8))
                  b s o ⟨1024 * 0 + k.val, by omega⟩)
            + ∑ k : Fin 1024, Bridge.term (m ((c : Thread nD τ).loc main_arg0)) (m ((c : Thread nD τ).loc main_arg1))
                  (m ((c : Thread nD τ).loc main_arg3)) (m ((c : Thread nD τ).loc main_arg4)) (m ((c : Thread nD τ).loc main_arg5))
                  (m ((c : Thread nD τ).loc main_arg6)) (m ((c : Thread nD τ).loc main_arg7)) (m ((c : Thread nD τ).loc main_arg8))
                  b s o ⟨1024 * 1 + k.val, by omega⟩)
            + ∑ k : Fin 1024, Bridge.term (m ((c : Thread nD τ).loc main_arg0)) (m ((c : Thread nD τ).loc main_arg1))
                  (m ((c : Thread nD τ).loc main_arg3)) (m ((c : Thread nD τ).loc main_arg4)) (m ((c : Thread nD τ).loc main_arg5))
                  (m ((c : Thread nD τ).loc main_arg6)) (m ((c : Thread nD τ).loc main_arg7)) (m ((c : Thread nD τ).loc main_arg8))
                  b s o ⟨1024 * 2 + k.val, by omega⟩)
            + ∑ k : Fin 1024, Bridge.term (m ((c : Thread nD τ).loc main_arg0)) (m ((c : Thread nD τ).loc main_arg1))
                  (m ((c : Thread nD τ).loc main_arg3)) (m ((c : Thread nD τ).loc main_arg4)) (m ((c : Thread nD τ).loc main_arg5))
                  (m ((c : Thread nD τ).loc main_arg6)) (m ((c : Thread nD τ).loc main_arg7)) (m ((c : Thread nD τ).loc main_arg8))
                  b s o ⟨1024 * 3 + k.val, by omega⟩)
          + (m ((c : Thread nD τ).loc main_arg2) : FVec Ideal S4096 .f32) (ix1 o) := by
  have hb := b.isLt
  have hs := s.isLt
  have hP : 2048 * b.val + s.val < 8192 := by omega
  have e : result m c (ix3 b s o)
      = Whole.result2d (V m c main_v19) (V m c main_v17) (V m c main_v20) (ix2 ⟨2048 * b.val + s.val, hP⟩ o) := by
    unfold result
    refine shapeCast_apply (Whole.result2d (V m c main_v19) (V m c main_v17) (V m c main_v20)) _ (ix3 b s o)
      (ix2 ⟨2048 * b.val + s.val, hP⟩ o) ?_
    rw [Shape.rowMajor_val_three, Shape.rowMajor_val_two]
    show (2048 * b.val + s.val) * 4096 + o.val = (b.val * 2048 + s.val) * 4096 + o.val
    omega
  rw [e, Whole.result2d_apply]
  unfold Whole.blocked Whole.blockSum Bridge.term
  simp only [Operands.lhs_apply m c b s _ ⟨2048 * b.val + s.val, hP⟩ rfl, Operands.rhs_apply m c, Operands.bias_apply m c]
  rfl

end Cert.KernelIdeal.Result

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/-
  Under the precondition every entry of every argument array is a real number.

  The precondition is the conjunction, over the nine argument arrays, of `all (|a| < +inf)`.  A conjunction of
  one-bit words is 1 only if both are, and `all (|a| < +inf)` at the ideal values says that no entry of `a` is an
  infinity.
-/
import proofs.«173432_j10479720202377_2_alg».proof.Defs
import proofs.«173432_j10479720202377_2_alg».proof.Proof.LibFiniteAll
import Idealize.ShloMosaic.Lib.Affine

noncomputable section

open Idealize.ShloMosaic

namespace Cert.FiniteInputs

open Cert.Pre_finite_inputs

/-- From the precondition: all nine arrays hold real numbers only. -/
theorem all_real [Cert.Pre_finite_inputs.Facts] (x : FVec Ideal S4x2048x4096 .f32) (W : FVec Ideal S4096x4096 .f32) (b : FVec Ideal S4096 .f32)
    (A : FVec Ideal S64x4096 .f32) (B : FVec Ideal S4096x64 .f32) (A1 : FVec Ideal S32x4096 .f32)
    (A2 : FVec Ideal S64x32 .f32) (B1 : FVec Ideal S32x64 .f32) (B2 : FVec Ideal S4096x32 .f32)
    (h : Cert.Pre_finite_inputs.fn (F := Ideal) x W b A B A1 A2 B1 B2 = fun _ => 1#1) :
    (∀ i, ∃ r : ℝ, x i = r) ∧ (∀ i, ∃ r : ℝ, W i = r) ∧ (∀ i, ∃ r : ℝ, b i = r) ∧ (∀ i, ∃ r : ℝ, A i = r)
      ∧ (∀ i, ∃ r : ℝ, B i = r) ∧ (∀ i, ∃ r : ℝ, A1 i = r) ∧ (∀ i, ∃ r : ℝ, A2 i = r) ∧ (∀ i, ∃ r : ℝ, B1 i = r)
      ∧ (∀ i, ∃ r : ℝ, B2 i = r) := by
  have h0 := congrFun h ValueIdx.ix0
  dsimp only [fn, fn_part1, fn_part2] at h0
  obtain ⟨h1, e8⟩ := IntOp.andi_eq_one.1 h0
  obtain ⟨h2, e7⟩ := IntOp.andi_eq_one.1 h1
  obtain ⟨h3, e6⟩ := IntOp.andi_eq_one.1 h2
  obtain ⟨h4, e5⟩ := IntOp.andi_eq_one.1 h3
  obtain ⟨h5, e4⟩ := IntOp.andi_eq_one.1 h4
  obtain ⟨h6, e3⟩ := IntOp.andi_eq_one.1 h5
  obtain ⟨h7, e2⟩ := IntOp.andi_eq_one.1 h6
  obtain ⟨e0, e1⟩ := IntOp.andi_eq_one.1 h7
  exact ⟨FiniteAll.all_real _ _ _ _ _ e0, FiniteAll.all_real _ _ _ _ _ e1, FiniteAll.all_real _ _ _ _ _ e2,
    FiniteAll.all_real _ _ _ _ _ e3, FiniteAll.all_real _ _ _ _ _ e4, FiniteAll.all_real _ _ _ _ _ e5,
    FiniteAll.all_real _ _ _ _ _ e6, FiniteAll.all_real _ _ _ _ _ e7, FiniteAll.all_real _ _ _ _ _ e8⟩

end Cert.FiniteInputs

end
-- ==== Proof.lean ====
/-
  A dense layer with two low-rank corrections, computed two ways.

  The reference chains the input through the thin factors:
      out[b,s,o] = (Σ_i x[b,s,i] · W[o,i] + bias[o]) + 4 · Σ_r (Σ_i x[b,s,i] · A[r,i]) · B[o,r]
                   + 2 · Σ_r' (Σ_q (Σ_r (Σ_i x[b,s,i] · A1[r,i]) · A2[q,r]) · B1[r',q]) · B2[o,r'].
  The kernel first folds the factors into one transposed weight
      wt[i,o] = (W[o,i] + 4 · Σ_r A[r,i] · B[o,r]) + 2 · Σ_r' (Σ_q (Σ_r A1[r,i] · A2[q,r]) · B1[r',q]) · B2[o,r'],
  and then multiplies the input, reshaped to [8192, 4096], by it on a grid of 8 × 2 × 4 blocks: the last grid axis
  runs over four blocks of the contracted dimension, accumulated in a scratch block from zero, the bias row added at
  the last block; the result is reshaped back to [4, 2048, 4096].

  At the ideal values (extended reals, exact operations, conversions the identity) the kernel's entry (b, s, o) is
  the four-block accumulated sum of x[b,s,i] · wt[i,o] plus bias[o]  (`KernelResult`: the accumulator's chain over
  four consecutive grid points, the blocks tiling the arrays, the reshapes' row-major re-indexing), and the
  reference's entry is the chained form (`ReferenceEntry`).  The four blocks regroup to one sum by associativity and
  commutativity of addition.  The remaining identity — multiplying by the folded weight is chaining through the
  factors — is associativity and distributivity of the matrix product; on the extended reals distributivity fails at
  the infinities, so this step uses the precondition: every argument entry is a real number (`FiniteInputs`), and then
  both sides are images of real expressions equal by `LoraFold.fold_eq_chain` (`Bridge`).

  The three frames are the generated ones (the reference's from its generated run); the idealization rewrote no
  operation, so `preserves` is `True`.
-/
import proofs.«173432_j10479720202377_2_alg».proof.Defs
import proofs.«173432_j10479720202377_2_alg».proof.Proof.Gen.Kernel
import proofs.«173432_j10479720202377_2_alg».proof.Proof.Gen.Kernel.Skeleton
import proofs.«173432_j10479720202377_2_alg».proof.Proof.Gen.Kernel.Launch
import proofs.«173432_j10479720202377_2_alg».proof.Proof.Gen.Kernel.Points
import proofs.«173432_j10479720202377_2_alg».proof.Proof.Gen.Kernel.Frame
import proofs.«173432_j10479720202377_2_alg».proof.Proof.Gen.KernelIdeal
import proofs.«173432_j10479720202377_2_alg».proof.Proof.Gen.KernelIdeal.Skeleton
import proofs.«173432_j10479720202377_2_alg».proof.Proof.Gen.KernelIdeal.Launch
import proofs.«173432_j10479720202377_2_alg».proof.Proof.Gen.KernelIdeal.Points
import proofs.«173432_j10479720202377_2_alg».proof.Proof.Gen.KernelIdeal.Frame
import proofs.«173432_j10479720202377_2_alg».proof.Proof.Gen.ReferenceIdeal
import proofs.«173432_j10479720202377_2_alg».proof.Proof.Gen.ReferenceIdeal.Run
import proofs.«173432_j10479720202377_2_alg».proof.Proof.Gen.ReferenceIdeal.Read
import proofs.«173432_j10479720202377_2_alg».proof.Proof.Gen.Pre_finite_inputs
import proofs.«173432_j10479720202377_2_alg».proof.Proof.KernelResult
import proofs.«173432_j10479720202377_2_alg».proof.Proof.FiniteInputs
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the reference's result, as a function of the kernel's argument arrays, is the kernel's
    result: entry by entry, the chained form against the four-block accumulated fold. -/
theorem results_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v15 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Result.result m c := by
  obtain ⟨hx, hW, hb, hA, hB, hA1, hA2, hB1, hB2⟩ := Cert.FiniteInputs.all_real _ _ _ _ _ _ _ _ _ (hpre c)
  funext i
  obtain ⟨b, s, o, rfl⟩ : ∃ (b : Fin 4) (s : Fin 2048) (o : Fin 4096), i = ix3 b s o := ⟨i 0, i 1, i 2, eq_ix3 i⟩
  rw [Cert.KernelIdeal.Result.entry_eq]
  exact (Cert.Bridge.blocked_eq_reference _ _ _ _ _ _ _ _ _ hx hW hb hA hB hA1 hA2 hB1 hB2 b s o).symm

/-- Both idealized programs run, from memories agreeing on the arguments, to equal results. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8⟩ := hagree c
  rw [(h c).1, Cert.ReferenceIdeal.Read.val_main_v15_eq, e0, e1, e2, e3, e4, e5, e6, e7, e8]
  exact results_agree m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
